-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x32 .f32) (main_arg3 : FVec F S32 .f32) (main_arg4 : FVec F S32x32 .f32) (main_arg5 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S1x32 : Shape := ⟨2, ![1, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S10000x32 : Shape := ⟨2, ![10000, 32]⟩

abbrev nBuf : Space → Nat
  | .hbm => 66
  | .vmem => 6
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x32, .f32⟩
  | .hbm, ⟨58, _⟩ => ⟨S1700000x1, .f32⟩
  | .hbm, ⟨59, _⟩ => ⟨S1700000x32, .f32⟩
  | .hbm, ⟨60, _⟩ => ⟨S1700000x32, .f32⟩
  | .hbm, ⟨61, _⟩ => ⟨S_, .f32⟩
  | .hbm, ⟨62, _⟩ => ⟨S100000x32, .f32⟩
  | .hbm, ⟨63, _⟩ => ⟨S1700000x1, .i32⟩
  | .hbm, ⟨64, _⟩ => ⟨S100000x32, .f32⟩
  | .hbm, ⟨65, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32_S1x32 : S32.ShapeCasts S1x32
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_v45) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 73
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S32x32, .f32⟩
  | .hbm, ⟨47, _⟩ => ⟨S100000x32, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x1, .f32⟩
  | .hbm, ⟨58, _⟩ => ⟨S1700000x32, .f32⟩
  | .hbm, ⟨59, _⟩ => ⟨S1700000x32, .f32⟩
  | .hbm, ⟨60, _⟩ => ⟨S_, .f32⟩
  | .hbm, ⟨61, _⟩ => ⟨S100000x32, .f32⟩
  | .hbm, ⟨62, _⟩ => ⟨S1700000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S100000x32, .f32⟩
  | .hbm, ⟨72, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x32_S100000x32_1_0_0_1_n_n_wf : DotDims.WF S100000x32 S32x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibConcatRead.lean ====
/-
  A join of two or three arrays along an axis, with the arrays as plain arguments.

  The library's join takes its pieces as a list of pairs (a shape, an array) together with a proof about the list of
  shapes. Stated over the pieces one by one — the proof first, the arrays after it — the same join can be rewritten
  piece by piece. Each form is the other by definition.
-/
import Idealize.ShloMosaic.PureOps.Ideal

noncomputable section

namespace Cert.LibConcatRead

open Idealize.ShloMosaic

/-- Two arrays joined along axis `a`. -/
def cat2 {α : Type} (t : Shape) (a : Fin t.rank) (S1 S2 : Shape) (hc : Shape.Concatenates [S1, S2] t a)
    (x1 : S1.Idx → α) (x2 : S2.Idx → α) : t.Idx → α :=
  concatenate t a [⟨S1, x1⟩, ⟨S2, x2⟩] hc

/-- Three arrays joined along axis `a`. -/
def cat3 {α : Type} (t : Shape) (a : Fin t.rank) (S1 S2 S3 : Shape) (hc : Shape.Concatenates [S1, S2, S3] t a)
    (x1 : S1.Idx → α) (x2 : S2.Idx → α) (x3 : S3.Idx → α) : t.Idx → α :=
  concatenate t a [⟨S1, x1⟩, ⟨S2, x2⟩, ⟨S3, x3⟩] hc

/-- The library's join of two pieces is `cat2` of them. -/
theorem cat2_intro {α : Type} (t : Shape) (a : Fin t.rank) (S1 S2 : Shape) (hc : Shape.Concatenates [S1, S2] t a)
    (x1 : S1.Idx → α) (x2 : S2.Idx → α) :
    concatenate t a [⟨S1, x1⟩, ⟨S2, x2⟩] hc = cat2 t a S1 S2 hc x1 x2 := rfl

/-- The library's join of three pieces is `cat3` of them. -/
theorem cat3_intro {α : Type} (t : Shape) (a : Fin t.rank) (S1 S2 S3 : Shape) (hc : Shape.Concatenates [S1, S2, S3] t a)
    (x1 : S1.Idx → α) (x2 : S2.Idx → α) (x3 : S3.Idx → α) :
    concatenate t a [⟨S1, x1⟩, ⟨S2, x2⟩, ⟨S3, x3⟩] hc = cat3 t a S1 S2 S3 hc x1 x2 x3 := rfl

end Cert.LibConcatRead

end
-- ==== Proof.FiniteInputs.lean ====
/-
  From the finiteness precondition to real entries.

  The precondition computes, for each float input x, the array |x| < +∞ entry by entry (the word
  0x7F800000 is the pattern of +∞), folds each such array by "and" from 1 into one bit, and joins the
  five bits by "and". The claim says the joined bit is 1. Read backwards: a conjunction that is 1 has
  both sides 1; a fold by "and" from 1 that came out 1 met a 1 at every entry; and at the ideal
  instance, where a float is an extended real and |x| is max x (-x), the entry's bit being 1 says
  max x (-x) < ⊤, which excludes x = ⊤ and x = ⊥ and leaves x a real number. Nothing here looks at an
  index: the argument is the same at every entry of every array.
-/
import proofs.«166304_j89936615178296_2_alg».proof.Pre_finite_inputs
import proofs.«166304_j89936615178296_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Cert.Pre_finite_inputs Idealize.ShloMosaic

/-- A rank-0 array has one index: there is no axis to differ on. -/
instance : Subsingleton S_.Idx := ⟨fun a b => funext fun d => d.elim0⟩

/-- The word 0x7F800000 (exponent all ones, fraction zero, sign clear) denotes +∞. -/
theorem inf_word : Ideal.ofBits .f32 0x7F800000#32 = (⊤ : EReal) := by
  simp [Ideal.ofBits, Ideal.ieee]

/-- An extended real whose absolute value max x (-x) is below +∞ is a real: at x = ⊤ the maximum is ⊤,
    and at x = ⊥ it is -⊥ = ⊤ again. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One entry of the compared array: the bit of |x| < (+∞ broadcast to x's shape) at index i being 1
    makes x i a real. The broadcast of a rank-0 constant is that constant at every index. -/
theorem entry_real {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  exact real_of_abs_lt_top _ h'

/-- The precondition, decoded for the three arrays the algebra needs: every entry of arguments 0, 2 and 4
    is a real number. -/
theorem real_of_pre [Cert.Pre_finite_inputs.Facts]
    (x0 : FVec Ideal S100000x32 .f32) (x1 : IVec S2x1600000 32) (x2 : FVec Ideal S32x32 .f32) (x3 : FVec Ideal S32 .f32)
    (x4 : FVec Ideal S32x32 .f32) (x5 : FVec Ideal S32 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x4 i = (r : EReal)) := by
  have e := congrFun h ValueIdx.ix0
  dsimp only [fn, fn_part1] at e
  simp only [andi, IntOp.andi_eq_one] at e
  obtain ⟨⟨⟨⟨h0, h2⟩, -⟩, h4⟩, -⟩ := e
  exact ⟨fun i => entry_real _ x0 i (Host.reduce_andi_all _ _ _ _ _ h0 i),
    fun i => entry_real _ x2 i (Host.reduce_andi_all _ _ _ _ _ h2 i),
    fun i => entry_real _ x4 i (Host.reduce_andi_all _ _ _ _ _ h4 i)⟩

end Cert.FiniteInputs

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.NormReal.lean ====
/-
  Every edge weight is a real number.

  The weight of edge `e` is `dinv (src e) * dinv (dst e)`, two entries of the vector `dinv = where(deg > 0, rsqrt deg, 0)`
  taken at the edge's end points (read signed and clamped into the node range, as a gather reads them). Whatever the
  degree `deg n` is on the extended reals, `dinv n` is real: where `deg n > 0` it is `rsqrt` of a positive extended real,
  which is `(√r)⁻¹` for a positive real `r` and `0` at `+∞`; elsewhere it is `0`. So the degree count itself is never opened.
-/
import proofs.«166304_j89936615178296_2_alg».proof.Proof.ReadP
import proofs.«166304_j89936615178296_2_alg».proof.Proof.LibHostGather

noncomputable section

namespace Cert.NormReal

open Cert.ReferenceIdeal Cert.ReferenceIdeal.Gen Cert.ReferenceIdeal.ReadP Idealize.ShloMosaic Idealize.ShloMosaic.ValueIdx

/-- `where(d > 0, rsqrt d, 0)` is a real number for every extended real `d`. -/
theorem sel_real (d : EReal) :
    ∃ r : ℝ, Scalar.select (FloatOps.cmpf (F := Ideal) .ogt d (FloatOps.ofBits (F := Ideal) .f32 0x00000000#32))
        (FloatOps.hostUnary (F := Ideal) .rsqrt d) (FloatOps.ofBits (F := Ideal) .f32 0x00000000#32) = (r : EReal) := by
  rw [Ideal.hostUnary_rsqrt_def, Ideal.ofBits_def, Ideal.ofBits_zero_f32]
  show ∃ r : ℝ, (if BitVec.ofBool (decide ((0 : EReal) < d)) = 1 then Ideal.rsqrt d else 0) = (r : EReal)
  by_cases h : (0 : EReal) < d
  · rw [if_pos (by rw [decide_eq_true h]; rfl)]
    induction d using EReal.rec with
    | bot => exact absurd h (by simp)
    | coe r =>
      have hr : 0 < r := by exact_mod_cast h
      refine ⟨(Real.sqrt r)⁻¹, ?_⟩
      rw [Ideal.rsqrt_coe, if_neg (not_lt.mpr hr.le), if_neg hr.ne']
    | top => exact ⟨0, by rw [Ideal.rsqrt_top]; rfl⟩
  · rw [if_neg (by rw [decide_eq_false h]; decide)]
    exact ⟨0, rfl⟩

/-- Every entry of `dinv` is real. -/
theorem dinv_real (x1 : (⟨S2x1600000, .i32⟩ : BufTy).Contents (Elt Ideal)) (i : S100000.Idx) :
    ∃ r : ℝ, val_main_v14 (F := Ideal) x1 i = (r : EReal) := by
  rw [val_main_v14_apply, val_main_v12_apply, val_main_v13_apply, val_main_v11_apply, val_main_cst_1_apply,
    val_main_call0_v1_apply, val_main_call0_v0_apply, val_main_cst_2_apply]
  exact sel_real _

/-- Edge `e` lands on node `n`: its destination word, read signed, is `n` (a destination outside the node range
    lands nowhere). -/
abbrev hitE (x1 : (⟨S2x1600000, .i32⟩ : BufTy).Contents (Elt Ideal)) (n : Fin 100000) (e : Fin 1700000) : Prop :=
  ((val_main_v43 (F := Ideal) x1) (Cert.HostInt.colIdx e)).toInt = (n.val : Int)

/-- The node whose row edge `e` reads: its source word (negative words wrapped by the node count), read signed and
    clamped into the node range. -/
abbrev srcRow (x1 : (⟨S2x1600000, .i32⟩ : BufTy).Contents (Elt Ideal)) (e : Fin 1700000) : Fin 100000 :=
  ⟨min ((val_main_v37 (F := Ideal) x1) (Cert.HostInt.colIdx e)).toInt.toNat (100000 - 1), by omega⟩

/-- The weight of edge `e`. -/
abbrev nrmE (x1 : (⟨S2x1600000, .i32⟩ : BufTy).Contents (Elt Ideal)) (e : Fin 1700000) : EReal :=
  val_main_v29 (F := Ideal) x1 (ix1 e)

/-- Every edge weight is real: a product of two entries of `dinv`. -/
theorem nrm_real (x1 : (⟨S2x1600000, .i32⟩ : BufTy).Contents (Elt Ideal)) (e : Fin 1700000) :
    ∃ r : ℝ, nrmE x1 e = (r : EReal) := by
  show ∃ r : ℝ, val_main_v29 (F := Ideal) x1 (ix1 e) = (r : EReal)
  rw [val_main_v29_apply]
  have g1 : val_main_v21 (F := Ideal) x1 (ix1 e) = val_main_v14 (F := Ideal) x1
      (ix1 ⟨min ((val_main_v20 (F := Ideal) x1) (Cert.HostInt.colIdx e)).toInt.toNat (100000 - 1), by omega⟩) :=
    Cert.HostInt.gather_take_col_apply (α := EReal) (B := 100000) (N := 1700000) (w := 32) (by omega)
      gather_S100000_S1700000x1_S1700000_n_0_n_n_0_1_1_wf (val_main_v14 (F := Ideal) x1) (val_main_v20 (F := Ideal) x1) e
  have g2 : val_main_v28 (F := Ideal) x1 (ix1 e) = val_main_v14 (F := Ideal) x1
      (ix1 ⟨min ((val_main_v27 (F := Ideal) x1) (Cert.HostInt.colIdx e)).toInt.toNat (100000 - 1), by omega⟩) :=
    Cert.HostInt.gather_take_col_apply (α := EReal) (B := 100000) (N := 1700000) (w := 32) (by omega)
      gather_S100000_S1700000x1_S1700000_n_0_n_n_0_1_1_wf (val_main_v14 (F := Ideal) x1) (val_main_v27 (F := Ideal) x1) e
  obtain ⟨a, ha⟩ := dinv_real x1 (ix1 ⟨min ((val_main_v20 (F := Ideal) x1) (Cert.HostInt.colIdx e)).toInt.toNat (100000 - 1), by omega⟩)
  obtain ⟨b, hb⟩ := dinv_real x1 (ix1 ⟨min ((val_main_v27 (F := Ideal) x1) (Cert.HostInt.colIdx e)).toInt.toNat (100000 - 1), by omega⟩)
  rw [g1, g2, ha, hb]
  exact ⟨a * b, by rw [Ideal.mulf_def, EReal.coe_mul]⟩

end Cert.NormReal

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.KernelHost.lean ====
/-
  The three arrays the kernel's one region finds, as functions of the arguments.

  Before the region the kernel's program computes, on the host, the summed weight matrix `W1 + W2`, the summed bias viewed
  as a row, and the aggregate of the RAW features: starting from zero, every edge `e` adds row `src e` of `x`, scaled by
  the edge's weight, to the row of the node it lands on. The edges' end points and weights are computed by the same
  operations, on the same argument, as in the reference; they are carried here as the same three functions of the edge
  array and never opened.
-/
import proofs.«166304_j89936615178296_2_alg».proof.Proof.Gen.KernelIdeal.Frame
import proofs.«166304_j89936615178296_2_alg».proof.Proof.NormReal
import proofs.«166304_j89936615178296_2_alg».proof.Proof.LibHostSegmentSum
import proofs.«166304_j89936615178296_2_alg».proof.Proof.LibConcatRead
import Idealize.ShloMosaic.Lib.StableHlo.Run

-- the host fold is long: its read-back recurses once per operation and per nested operand
set_option maxRecDepth 65536

noncomputable section

namespace Cert.KernelHost

open Cert.KernelIdeal Cert.KernelIdeal.Gen Idealize.ShloMosaic Idealize.ShloMosaic.TcCoe Idealize.SL.Sem
open Idealize.ShloMosaic.StableHlo Idealize.ShloMosaic.ValueIdx

/-- The host operations' results, read back in one pass; a join's pieces are made plain arguments so that the pass
    reaches them. -/
macro "host_results" : tactic =>
  `(tactic| (dsimp only [V]
             simp only [hostOps0, hostOps0_1, hostOps0_2, List.flatten_cons, List.flatten_nil, List.append_nil, List.cons_append,
               List.nil_append]
             simp (disch := decide) only [after_cons, after_nil,
               nullary_result', unary_result', binary_result', ternary_result', quaternary_result', reshape_result', nary4_result', nary_result',
               unaryIndexed_result', binaryIndexed_result',
               nullary_result_ne', unary_result_ne', binary_result_ne', ternary_result_ne', quaternary_result_ne', reshape_result_ne',
               nary_result_ne', unaryIndexed_result_ne', binaryIndexed_result_ne', Cert.LibConcatRead.cat2_intro]))

variable (m : (ℓ : Loc nD τ sig) → Buf (Elt Ideal) ℓ) (c : Dev nD)

/-- The weight matrix the region finds is `W1 + W2`. -/
theorem V_w : (V m c main_v0 : S32x32.Idx → EReal)
    = addf (F := Ideal) (s := S32x32) (φ := .f32) (m ((c : Thread nD τ).loc main_arg2)) (m ((c : Thread nD τ).loc main_arg4)) := by
  host_results

/-- The bias row the region finds is `b1 + b2` viewed as a row. -/
theorem V_b : (V m c main_v2 : S1x32.Idx → EReal)
    = shapeCast S1x32 (addf (F := Ideal) (s := S32) (φ := .f32) (m ((c : Thread nD τ).loc main_arg3)) (m ((c : Thread nD τ).loc main_arg5)))
        shapeCasts_S32_S1x32 := by
  host_results
  rfl

/-! ### The edge data, as the same functions of the edge array as in the reference

Each of the following identifies one host value of the kernel's program with the stage of the reference's program that
computes it by the same operations: the two spellings differ only in the names of the shapes and of the side conditions. -/

/-- The destination words as a column. -/
theorem V_dstcol : (V m c main_v44 : S1700000x1.Idx → BitVec 32) = Cert.ReferenceIdeal.ReadP.val_main_v43 (F := Ideal) (m ((c : Thread nD τ).loc main_arg1)) := by
  host_results
  rfl

/-- The source words, negative ones wrapped, as a column (for the gather of the features). -/
theorem V_srccol : (V m c main_v38 : S1700000x1.Idx → BitVec 32) = Cert.ReferenceIdeal.ReadP.val_main_v37 (F := Ideal) (m ((c : Thread nD τ).loc main_arg1)) := by
  host_results
  rfl

/-- The same column, for the gather of `dinv` at the source. -/
theorem V_srccol' : (V m c main_v23 : S1700000x1.Idx → BitVec 32) = Cert.ReferenceIdeal.ReadP.val_main_v20 (F := Ideal) (m ((c : Thread nD τ).loc main_arg1)) := by
  host_results
  rfl

/-- The destination words, negative ones wrapped, as a column (for the gather of `dinv` at the destination). -/
theorem V_dstcol' : (V m c main_v30 : S1700000x1.Idx → BitVec 32) = Cert.ReferenceIdeal.ReadP.val_main_v27 (F := Ideal) (m ((c : Thread nD τ).loc main_arg1)) := by
  host_results
  rfl

/-- `deg > 0`. -/
theorem V_pos : (V m c main_v15 : S100000.Idx → BitVec 1) = Cert.ReferenceIdeal.ReadP.val_main_v12 (F := Ideal) (m ((c : Thread nD τ).loc main_arg1)) := by
  host_results
  rfl

/-- `rsqrt deg`. -/
theorem V_rsqrt : (V m c main_v16 : S100000.Idx → EReal) = Cert.ReferenceIdeal.ReadP.val_main_v13 (F := Ideal) (m ((c : Thread nD τ).loc main_arg1)) := by
  host_results
  rfl

/-- The zero vector `where` falls back to. -/
theorem V_zero : (V m c main_call0_v1 : S100000.Idx → EReal) = Cert.ReferenceIdeal.ReadP.val_main_call0_v1 (F := Ideal) := by
  host_results
  rfl

/-! An outlined function's operations read and write their buffers through a transport along the buffer's type; at a
    literal buffer the type is the value's own and the transport is the identity. -/

theorem of_pos (v : S100000.Idx → BitVec 1) :
    (TRef.of (T := ⟨S100000, .i1⟩) main_v15).ofBuf (Val := Elt Ideal) v = v := rfl
theorem of_rsqrt (v : S100000.Idx → EReal) :
    (TRef.of (T := ⟨S100000, .f32⟩) main_v16).ofBuf (Val := Elt Ideal) v = v := rfl
theorem of_zero (v : S100000.Idx → EReal) :
    (TRef.of (T := ⟨S100000, .f32⟩) main_call0_v1).ofBuf (Val := Elt Ideal) v = v := rfl
theorem to_dinv (v : S100000.Idx → EReal) :
    (TRef.of (T := ⟨S100000, .f32⟩) main_v17).toBuf (Val := Elt Ideal) v = v := rfl

/-- `dinv` is the selection among the three values above. -/
theorem V_dinv_step : (V m c main_v17 : S100000.Idx → EReal)
    = select (V m c main_v15 : S100000.Idx → BitVec 1) (V m c main_v16 : S100000.Idx → EReal) (V m c main_call0_v1 : S100000.Idx → EReal) := by
  host_results
  rw [to_dinv, of_pos, of_rsqrt, of_zero]

/-- `dinv`, as in the reference. -/
theorem V_dinv : (V m c main_v17 : S100000.Idx → EReal) = Cert.ReferenceIdeal.ReadP.val_main_v14 (F := Ideal) (m ((c : Thread nD τ).loc main_arg1)) := by
  rw [V_dinv_step, V_pos, V_rsqrt, V_zero]
  rfl

set_option maxHeartbeats 4000000 in
/-- The aggregate of the raw features, over the host values it is computed from. -/
theorem V_a_step : (V m c main_v45 : S100000x32.Idx → EReal)
    = Host.scatterAdd (F := Ideal) scatter_S100000x32_S1700000x1_S1700000x32_1_0_0_1
        (broadcastInDim S100000x32 ![] bcast_S_S100000x32 (constant (F := Ideal) S_ .f32 0x00000000#32))
        (V m c main_v44 : S1700000x1.Idx → BitVec 32)
        (mulf (Host.gather gather_S100000x32_S1700000x1_S1700000x32_1_0_n_n_0_1_132 (m ((c : Thread nD τ).loc main_arg0))
                (V m c main_v38 : S1700000x1.Idx → BitVec 32))
              (broadcastInDim S1700000x32 ![0, 1] bcast_S1700000x1_S1700000x32_0_1
                (broadcastInDim S1700000x1 ![0] bcast_S1700000_S1700000x1_0
                  (mulf (F := Ideal) (s := S1700000) (φ := .f32)
                    (Host.gather gather_S100000_S1700000x1_S1700000_n_0_n_n_0_1_1 (V m c main_v17 : S100000.Idx → EReal)
                      (V m c main_v23 : S1700000x1.Idx → BitVec 32))
                    (Host.gather gather_S100000_S1700000x1_S1700000_n_0_n_n_0_1_1 (V m c main_v17 : S100000.Idx → EReal)
                      (V m c main_v30 : S1700000x1.Idx → BitVec 32)))))) := by
  host_results

/-- The aggregate of the raw features the region finds, with the edges' end points and weights as in the reference. -/
theorem V_a : (V m c main_v45 : S100000x32.Idx → EReal)
    = Host.scatterAdd (F := Ideal) scatter_S100000x32_S1700000x1_S1700000x32_1_0_0_1
        (broadcastInDim S100000x32 ![] bcast_S_S100000x32 (constant (F := Ideal) S_ .f32 0x00000000#32))
        (Cert.ReferenceIdeal.ReadP.val_main_v43 (F := Ideal) (m ((c : Thread nD τ).loc main_arg1)))
        (mulf (Host.gather gather_S100000x32_S1700000x1_S1700000x32_1_0_n_n_0_1_132 (m ((c : Thread nD τ).loc main_arg0))
                (Cert.ReferenceIdeal.ReadP.val_main_v37 (F := Ideal) (m ((c : Thread nD τ).loc main_arg1))))
              (Cert.ReferenceIdeal.ReadP.val_main_v40 (F := Ideal) (m ((c : Thread nD τ).loc main_arg1)))) := by
  rw [V_a_step, V_dstcol, V_srccol, V_srccol', V_dstcol', V_dinv]
  rfl

end Cert.KernelHost

end
-- ==== Proof.KernelEntry.lean ====
/-
  The three arrays the kernel's region finds, each read at an entry.

  Entry `(n, k)` of the aggregate of the raw features is zero plus, for every edge `e` that lands on node `n`, the entry
  `k` of row `src e` of `x` scaled by the edge's weight; entry `(k, o)` of the weight matrix is `W1(k, o) + W2(k, o)`;
  entry `(0, o)` of the bias row is `b1 o + b2 o`.
-/
import proofs.«166304_j89936615178296_2_alg».proof.Proof.KernelHost
import Idealize.ShloMosaic.Lib.Pipeline.Value

noncomputable section

namespace Cert.KernelEntry

open Cert.KernelIdeal Cert.KernelIdeal.Gen Idealize.ShloMosaic Idealize.ShloMosaic.TcCoe Idealize.SL.Sem
open Idealize.ShloMosaic.ValueIdx Cert.NormReal

/-- One edge's raw update at column `k`: row `src e` of `x` at `k`, times the edge's weight. -/
theorem raw_update_entry (x0 : S100000x32.Idx → EReal) (x1 : IVec S2x1600000 32) (e : Fin 1700000) (k : Fin 32) :
    mulf (F := Ideal) (s := S1700000x32) (φ := .f32)
        (Host.gather (α := EReal) gather_S100000x32_S1700000x1_S1700000x32_1_0_n_n_0_1_132 x0
          (Cert.ReferenceIdeal.ReadP.val_main_v37 (F := Ideal) x1))
        (Cert.ReferenceIdeal.ReadP.val_main_v40 (F := Ideal) x1) (ix2 e k)
      = x0 (ix2 (srcRow x1 e) k) * nrmE x1 e := by
  have g : Host.gather (α := EReal) gather_S100000x32_S1700000x1_S1700000x32_1_0_n_n_0_1_132 x0
      (Cert.ReferenceIdeal.ReadP.val_main_v37 (F := Ideal) x1) (ix2 e k) = x0 (ix2 (srcRow x1 e) k) :=
    Cert.HostInt.gather_rows_apply (α := EReal) (B := 100000) (F := 32) (N := 1700000) (w := 32) (by omega)
      gather_S100000x32_S1700000x1_S1700000x32_1_0_n_n_0_1_132_wf x0 (Cert.ReferenceIdeal.ReadP.val_main_v37 (F := Ideal) x1) e k
  have hn : Cert.ReferenceIdeal.ReadP.val_main_v40 (F := Ideal) x1 (ix2 e k) = nrmE x1 e := by
    rw [Cert.ReferenceIdeal.ReadP.val_main_v40_apply, Cert.ReferenceIdeal.ReadP.val_main_v39_apply]
    exact congrArg (Cert.ReferenceIdeal.ReadP.val_main_v29 (F := Ideal) x1)
      (funext fun a => Fin.ext (by match a with | ⟨0, _⟩ => rfl))
  show FloatOps.mulf (F := Ideal) _ _ = _
  rw [Ideal.mulf_def, g, hn]

/-- The aggregate of the raw features at an entry. -/
theorem raw_agg_entry (x0 : S100000x32.Idx → EReal) (x1 : IVec S2x1600000 32) (n : Fin 100000) (k : Fin 32) :
    Host.scatterAdd (F := Ideal) scatter_S100000x32_S1700000x1_S1700000x32_1_0_0_1
        (broadcastInDim S100000x32 ![] bcast_S_S100000x32 (constant (F := Ideal) S_ .f32 0x00000000#32))
        (Cert.ReferenceIdeal.ReadP.val_main_v43 (F := Ideal) x1)
        (mulf (F := Ideal) (s := S1700000x32) (φ := .f32)
          (Host.gather (α := EReal) gather_S100000x32_S1700000x1_S1700000x32_1_0_n_n_0_1_132 x0
            (Cert.ReferenceIdeal.ReadP.val_main_v37 (F := Ideal) x1))
          (Cert.ReferenceIdeal.ReadP.val_main_v40 (F := Ideal) x1)) (ix2 n k)
      = (0 : EReal) + ∑ e : Fin 1700000, if hitE x1 n e then x0 (ix2 (srcRow x1 e) k) * nrmE x1 e else 0 := by
  refine (Cert.HostInt.scatterAdd_rows_apply (B := 100000) (F := 32) (N := 1700000) (w := 32) (φ := .f32)
      scatter_S100000x32_S1700000x1_S1700000x32_1_0_0_1_wf
      (broadcastInDim S100000x32 ![] bcast_S_S100000x32 (constant (F := Ideal) S_ .f32 0x00000000#32))
      (Cert.ReferenceIdeal.ReadP.val_main_v43 (F := Ideal) x1) _ n k).trans ?_
  have z : broadcastInDim S100000x32 ![] bcast_S_S100000x32 (constant (F := Ideal) S_ .f32 0x00000000#32) (ix2 n k) = (0 : EReal) := by
    show Ideal.ofBits .f32 0x00000000#32 = 0
    exact Ideal.ofBits_zero_f32
  rw [z]
  refine congrArg ((0 : EReal) + ·) (Finset.sum_congr rfl fun e _ => ?_)
  rw [raw_update_entry]

variable (m : (ℓ : Loc nD τ sig) → Buf (Elt Ideal) ℓ) (c : Dev nD)

/-- The six argument arrays on core `c`, at their types. -/
abbrev argX : S100000x32.Idx → EReal := m ((c : Thread nD τ).loc main_arg0)
abbrev argE : IVec S2x1600000 32 := m ((c : Thread nD τ).loc main_arg1)
abbrev argW1 : S32x32.Idx → EReal := m ((c : Thread nD τ).loc main_arg2)
abbrev argB1 : S32.Idx → EReal := m ((c : Thread nD τ).loc main_arg3)
abbrev argW2 : S32x32.Idx → EReal := m ((c : Thread nD τ).loc main_arg4)
abbrev argB2 : S32.Idx → EReal := m ((c : Thread nD τ).loc main_arg5)

/-- The aggregate the region finds, at an entry. -/
theorem A_entry (n : Fin 100000) (k : Fin 32) :
    (V m c main_v45 : S100000x32.Idx → EReal) (ix2 n k)
      = (0 : EReal) + ∑ e : Fin 1700000, if hitE (argE m c) n e then
          argX m c (ix2 (srcRow (argE m c) e) k) * nrmE (argE m c) e else 0 :=
  (congrFun (Cert.KernelHost.V_a m c) (ix2 n k)).trans (raw_agg_entry (argX m c) (argE m c) n k)

/-- The weight matrix the region finds, at an entry. -/
theorem W_entry (k o : Fin 32) :
    (V m c main_v0 : S32x32.Idx → EReal) (ix2 k o) = argW1 m c (ix2 k o) + argW2 m c (ix2 k o) :=
  (congrFun (Cert.KernelHost.V_w m c) (ix2 k o)).trans rfl

/-- The bias row the region finds, at an entry. -/
theorem b_entry (o : Fin 32) :
    (V m c main_v2 : S1x32.Idx → EReal) (ix2 (0 : Fin 1) o) = argB1 m c (ix1 o) + argB2 m c (ix1 o) :=
  (congrFun (Cert.KernelHost.V_b m c) (ix2 (0 : Fin 1) o)).trans
    ((shapeCast_apply (addf (F := Ideal) (s := S32) (φ := .f32) (argB1 m c) (argB2 m c)) shapeCasts_S32_S1x32
        (ix2 (0 : Fin 1) o) (ix1 o) (by
          rw [Shape.rowMajor_val_one, Shape.rowMajor_val_two]
          show o.val = (0 : Fin 1).val * 32 + o.val
          simp)).trans rfl)

end Cert.KernelEntry

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.KernelDense.lean ====
/-
  The dense layer the kernel computes, read at an entry of its output array, at the ideal values.

  The grid has ten points. Point t is handed rows 10000·t … 10000·t + 9999 of the activations (all 32 columns), the
  whole 32×32 weight matrix and the whole 1×32 bias row, and writes rows 10000·t … 10000·t + 9999 of the output. On its
  block the body forms the matrix product of the activations' block with the weights (into a zero accumulator; the
  rounding of both operands to a narrower format is the identity on extended reals), adds the bias row to every row,
  and clamps below at zero. So entry (p, q) of what point t writes is

      max (∑ k < 32, x(10000·t + p, k) · w(k, q) + b(0, q)) 0,

  which depends on the whole row 10000·t + p of the activations, on column q of the weights and on entry q of the bias.
  The ten row blocks tile the output array: row r lies in the block of point r / 10000. Hence every entry (n, o) of the
  output array ends at the same expression with row n of the activations.
-/
import proofs.«166304_j89936615178296_2_alg».proof.Proof.Gen.KernelIdeal.Value
import proofs.«166304_j89936615178296_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dense

open Cert.KernelIdeal Cert.KernelIdeal.Gen Idealize.ShloMosaic Idealize.ShloMosaic.ValueIdx

variable (m : (ℓ : Loc nD τ sig) → Buf (Elt Ideal) ℓ) (c : Dev nD)

/-! ## The three arrays the kernel reads, as the region finds them -/

/-- The activations, 100000 rows of 32 entries. -/
abbrev regA : S100000x32.Idx → EReal := V m c main_v45
/-- The weights, a 32×32 matrix. -/
abbrev regW : S32x32.Idx → EReal := V m c main_v0
/-- The bias, one row of 32 entries. -/
abbrev regB : S1x32.Idx → EReal := V m c main_v2

/-! ## The layer as one function of three arrays -/

/-- The dense layer of activations `A`, weights `W` and bias row `B`: at entry (n, o) the product of row n of `A` with
    column o of `W`, plus entry o of `B`, clamped below at zero. -/
def dense (A : S100000x32.Idx → EReal) (W : S32x32.Idx → EReal) (B : S1x32.Idx → EReal) : S100000x32.Idx → EReal :=
  fun i => max ((∑ k : Fin 32, A (ix2 (i 0) k) * W (ix2 k (i 1))) + B (ix2 (0 : Fin 1) (i 1))) 0

/-- The layer at an entry given by its two coordinates. -/
theorem dense_ix2 (A : S100000x32.Idx → EReal) (W : S32x32.Idx → EReal) (B : S1x32.Idx → EReal) (n : Fin 100000)
    (o : Fin 32) :
    dense A W B (ix2 n o) = max ((∑ k : Fin 32, A (ix2 n k) * W (ix2 k o)) + B (ix2 (0 : Fin 1) o)) 0 := rfl

/-! ## What the body computes on one block, at an entry -/

/-- The block product: rounding to the narrower format changes no extended real, the identity shape casts change
    nothing, and a product into the zero accumulator with one contracted axis is the sum over that axis of the products
    of the entries. -/
theorem product_apply (x0 : Vec Ideal S10000x32 .f32) (x1 : Vec Ideal S32x32 .f32) (p : Fin 10000) (q : Fin 32) :
    matmul (F := Ideal) dot_S10000x32_S32x32_S10000x32_1_0_0_1_n_n none
        (truncf .bf16 (shapeCast S10000x32 x0 shapeCasts_S10000x32_S10000x32) bitsLt_bf16_f32)
        (truncf .bf16 (shapeCast S32x32 x1 shapeCasts_S32x32_S32x32) bitsLt_bf16_f32)
        (constant S10000x32 .f32 0x00000000#32) (ix2 p q)
      = ∑ k : Fin 32, x0 (ix2 p k) * x1 (ix2 k q) := by
  rw [shapeCast_self, shapeCast_self]
  exact Cert.LibPlainDot.matmul_zero_apply none x0 x1 p q

/-- The bias row repeated down the 10000 rows of a block: row p of the repetition is the one row there is. -/
theorem bias_apply (x2 : Vec Ideal S1x32 .f32) (p : Fin 10000) (q : Fin 32) :
    broadcastTo S10000x32 (shapeCast S1x32 (shapeCast S1x32 x2 shapeCasts_S1x32_S1x32) shapeCasts_S1x32_S1x32)
        broadcasts_S1x32_S10000x32 (ix2 p q)
      = x2 (ix2 (0 : Fin 1) q) := by
  rw [shapeCast_self, shapeCast_self]
  exact broadcastTo_1b_ab_apply x2 broadcasts_S1x32_S10000x32 p q

/-- The body's stored value at entry (p, q) of a block: the product's entry plus the bias entry, clamped below at
    the zero the literal word denotes. -/
theorem payload_apply (x0 : Vec Ideal S10000x32 .f32) (x1 : Vec Ideal S32x32 .f32) (x2 : Vec Ideal S1x32 .f32)
    (p : Fin 10000) (q : Fin 32) :
    k0_pay1 x0 x1 x2 (ix2 p q)
      = max ((∑ k : Fin 32, x0 (ix2 p k) * x1 (ix2 k q)) + x2 (ix2 (0 : Fin 1) q)) (0 : EReal) := by
  unfold k0_pay1
  show max (matmul (F := Ideal) dot_S10000x32_S32x32_S10000x32_1_0_0_1_n_n none
        (truncf .bf16 (shapeCast S10000x32 x0 shapeCasts_S10000x32_S10000x32) bitsLt_bf16_f32)
        (truncf .bf16 (shapeCast S32x32 x1 shapeCasts_S32x32_S32x32) bitsLt_bf16_f32)
        (constant S10000x32 .f32 0x00000000#32) (ix2 p q)
      + broadcastTo S10000x32 (shapeCast S1x32 (shapeCast S1x32 x2 shapeCasts_S1x32_S1x32) shapeCasts_S1x32_S1x32)
        broadcasts_S1x32_S10000x32 (ix2 p q)) (Ideal.ofBits .f32 0x00000000#32) = _
  rw [product_apply, bias_apply, Ideal.ofBits_zero_f32]

/-- If a block's row p is row r of `A`, and the other two blocks are `W` and `B` where the entry reads them, the body's
    value at (p, q) is the layer of `A`, `W`, `B` at (r, q). -/
theorem block_eq (x0 : Vec Ideal S10000x32 .f32) (x1 : Vec Ideal S32x32 .f32) (x2 : Vec Ideal S1x32 .f32)
    (A : S100000x32.Idx → EReal) (W : S32x32.Idx → EReal) (B : S1x32.Idx → EReal)
    (p : Fin 10000) (q : Fin 32) (r : Fin 100000)
    (h0 : ∀ k : Fin 32, x0 (ix2 p k) = A (ix2 r k))
    (h1 : ∀ k : Fin 32, x1 (ix2 k q) = W (ix2 k q))
    (h2 : x2 (ix2 (0 : Fin 1) q) = B (ix2 (0 : Fin 1) q)) :
    k0_pay1 x0 x1 x2 (ix2 p q) = dense A W B (ix2 r q) := by
  rw [payload_apply, dense_ix2, h2]
  simp only [h0, h1]

/-! ## Where the blocks sit in their arrays -/

theorem hz : (![0, 0] : Fin 2 → Nat) = fun _ => 0 := funext fun a => by fin_cases a <;> rfl

/-- The index maps over the ten grid points: the activations' and the output's block index is (t, 0); the weights'
    and the bias's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of a 100000×32 array `X` is row 10000·t + p of `X`, at every column. -/
theorem read_blk0 (X : S100000x32.Idx → EReal) (t : Fin cfg0.N) (p : Fin 10000) (k : Fin 32) (r : Fin 100000)
    (hr : r.val = 10000 * t.val + p.val) :
    ((cfg0.win 0).blk t).view.read (Elt Ideal) X (ix2 p k) = X (ix2 r k) := by
  obtain ⟨e0, e1, -⟩ := idx_facts t
  rw [View.read_apply]
  show X (((cfg0.win 0).blk t).view.emb (ix2 p k)) = X (ix2 r k)
  refine congrArg X ?_
  funext a; apply Fin.ext
  match a with
  | ⟨0, _⟩ => show win0_0.index t (0 : Fin 2) * 10000 + 1 * p.val = r.val; omega
  | ⟨1, _⟩ => show win0_0.index t (1 : Fin 2) * 32 + 1 * k.val = k.val; omega

/-- Every point's block of a 32×32 array `X` is `X`. -/
theorem read_blk1 (X : S32x32.Idx → EReal) (t : Fin cfg0.N) (k : Fin 32) (q : Fin 32) :
    ((cfg0.win 1).blk t).view.read (Elt Ideal) X (ix2 k q) = X (ix2 k q) := by
  obtain ⟨-, -, e2, e3, -⟩ := idx_facts t
  rw [View.read_apply]
  show X (((cfg0.win 1).blk t).view.emb (ix2 k q)) = X (ix2 k q)
  refine congrArg X ?_
  funext a; apply Fin.ext
  match a with
  | ⟨0, _⟩ => show win0_1.index t (0 : Fin 2) * 32 + 1 * k.val = k.val; omega
  | ⟨1, _⟩ => show win0_1.index t (1 : Fin 2) * 32 + 1 * q.val = q.val; omega

/-- Every point's block of a 1×32 array `X` is `X`. -/
theorem read_blk2 (X : S1x32.Idx → EReal) (t : Fin cfg0.N) (q : Fin 32) :
    ((cfg0.win 2).blk t).view.read (Elt Ideal) X (ix2 (0 : Fin 1) q) = X (ix2 (0 : Fin 1) q) := by
  obtain ⟨-, -, -, -, e4, e5, -⟩ := idx_facts t
  rw [View.read_apply]
  show X (((cfg0.win 2).blk t).view.emb (ix2 (0 : Fin 1) q)) = X (ix2 (0 : Fin 1) q)
  refine congrArg X ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 32 + 1 * q.val = q.val; omega

/-- The activations' block at point t, row p, is row 10000·t + p of the activations. -/
theorem blk0_apply (t : Fin cfg0.N) (p : Fin 10000) (k : Fin 32) (r : Fin 100000)
    (hr : r.val = 10000 * t.val + p.val) :
    (iblk m c 0 t : Vec Ideal S10000x32 .f32) (ix2 p k) = regA m c (ix2 r k) := by
  unfold iblk
  exact read_blk0 (regA m c) t p k r hr

/-- The weights' block at any point is the weights. -/
theorem blk1_apply (t : Fin cfg0.N) (k : Fin 32) (q : Fin 32) :
    (iblk m c 1 t : Vec Ideal S32x32 .f32) (ix2 k q) = regW m c (ix2 k q) := by
  unfold iblk
  exact read_blk1 (regW m c) t k q

/-- The bias's block at any point is the bias. -/
theorem blk2_apply (t : Fin cfg0.N) (q : Fin 32) :
    (iblk m c 2 t : Vec Ideal S1x32 .f32) (ix2 (0 : Fin 1) q) = regB m c (ix2 (0 : Fin 1) q) := by
  unfold iblk
  exact read_blk2 (regB m c) t q

/-! ## What a point writes back is its block of the layer -/

/-- For any three blocks that are, where read, rows 10000·t … of `A`, all of `W` and all of `B`: the body's result on
    them is point t's block of the layer of `A`, `W`, `B`. The body's one store covers the buffer, its loads read the
    whole blocks; entry (p, q) of the block sits at (10000·t + p, q) of the output array. -/
theorem flushed_gen (A : S100000x32.Idx → EReal) (W : S32x32.Idx → EReal) (B : S1x32.Idx → EReal)
    (x0 : Vec Ideal S10000x32 .f32) (x1 : Vec Ideal S32x32 .f32) (x2 : Vec Ideal S1x32 .f32) (t : Fin cfg0.N)
    (h0 : ∀ (p : Fin 10000) (k : Fin 32) (r : Fin 100000), r.val = 10000 * t.val + p.val → x0 (ix2 p k) = A (ix2 r k))
    (h1 : ∀ k q : Fin 32, x1 (ix2 k q) = W (ix2 k q))
    (h2 : ∀ q : Fin 32, x2 (ix2 (0 : Fin 1) q) = B (ix2 (0 : Fin 1) q)) :
    (cfg0.win 3).cut (grid0.coords t) (out0_3 x0 x1 x2) = ((cfg0.win 3).blk t).view.read (Elt Ideal) (dense A W B) := by
  have hN : cfg0.N = 10 := N_0
  obtain ⟨-, -, -, -, -, -, e6, e7⟩ := idx_facts t
  unfold out0_3
  rw [View.canon_unit_zero hz]
  simp only [View.ld_unit_zero (S := S10000x32) hz, View.ld_unit_zero (S := S32x32) hz, View.ld_unit_zero (S := S1x32) hz]
  funext j
  obtain ⟨p, q, rfl⟩ : ∃ (p : Fin 10000) (q : Fin 32), j = ix2 p q := ⟨j 0, j 1, eq_ix2 j⟩
  have ht := t.isLt
  have hp := p.isLt
  rw [View.read_apply]
  show k0_pay1 x0 x1 x2 (ix2 p q) = dense A W B (((cfg0.win 3).blk t).view.emb (ix2 p q))
  have hemb : ((cfg0.win 3).blk t).view.emb (ix2 p q) = ix2 (⟨10000 * t.val + p.val, by omega⟩ : Fin 100000) q := by
    funext a; apply Fin.ext
    match a with
    | ⟨0, _⟩ => show win0_3.index t (0 : Fin 2) * 10000 + 1 * p.val = 10000 * t.val + p.val; omega
    | ⟨1, _⟩ => show win0_3.index t (1 : Fin 2) * 32 + 1 * q.val = q.val; omega
  rw [hemb]
  exact block_eq x0 x1 x2 A W B p q _ (fun k => h0 p k _ rfl) (fun k => h1 k q) (h2 q)

/-- What point t writes back to the output array is its block of the layer of the three arrays. -/
theorem flushed_eq (t : Fin cfg0.N) :
    (dats (F := Ideal) m 0 c).flushed 3 t
      = ((cfg0.win 3).blk t).view.read (Elt Ideal) (dense (regA m c) (regW m c) (regB m c)) :=
  (Value.flushed3 m c t).trans
    (flushed_gen (regA m c) (regW m c) (regB m c) (iblk m c 0 t) (iblk m c 1 t) (iblk m c 2 t) t
      (fun p k r hr => blk0_apply m c t p k r hr) (fun k q => blk1_apply m c t k q) (fun q => blk2_apply m c t q))

/-! ## The ten blocks tile the output array -/

/-- An entry is in point t's block iff each coordinate is in the block's range on its axis. -/
theorem mem_blk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v46).slice (win0_3.rect t)).set ↔ _
  rw [View.set_slice_whole, Rect.mem_set_unit]
  exact Iff.rfl

/-- Row r of the output array lies in the block of point r / 10000, which writes back. -/
theorem cover (i : S100000x32.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 32 := (i 1).isLt
  obtain ⟨t, ht⟩ : ∃ t : Fin cfg0.N, t.val = (i 0).val / 10000 := ⟨⟨(i 0).val / 10000, by omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 32 ≤ (i 1).val ∧ (i 1).val < win0_3.index t (1 : Fin 2) * 32 + 32
    omega

/-! ## The output array after the run -/

/-- The output array ends holding the layer of the three arrays the region found. -/
theorem final : (dats (F := Ideal) m 0 c).arrAt 3 cfg0.N = dense (regA m c) (regW m c) (regB m c) :=
  (dats m 0 c).arrAt_eq_of_cover 3 (dense (regA m c) (regW m c) (regB m c)) (fun t _ => flushed_eq m c t) cover

/-- Entry (n, o) of the output array: row n of the activations times column o of the weights, plus entry o of the
    bias, clamped below at zero. -/
theorem final_apply (n : Fin 100000) (o : Fin 32) :
    (dats (F := Ideal) m 0 c).arrAt 3 cfg0.N (ix2 n o)
      = max ((∑ k : Fin 32, regA m c (ix2 n k) * regW m c (ix2 k o)) + regB m c (ix2 (0 : Fin 1) o)) (0 : EReal) :=
  (congrFun (final m c) (ix2 n o)).trans (dense_ix2 (regA m c) (regW m c) (regB m c) n o)

end Cert.KernelIdeal.Dense

end
-- ==== Proof.RefEntry.lean ====
/-
  The reference's result at an entry.

  Entry `(n, o)` of the reference is `max(agg(n, o) + b1 o + b2 o, 0)`, where `agg(n, o)` starts from zero and adds, for
  every edge `e` that lands on node `n`, the entry `o` of row `src e` of `x · (W1 + W2)` scaled by the edge's weight.
-/
import proofs.«166304_j89936615178296_2_alg».proof.Proof.NormReal
import proofs.«166304_j89936615178296_2_alg».proof.Proof.LibHostSegmentSum

noncomputable section

namespace Cert.RefEntry

open Cert.ReferenceIdeal Cert.ReferenceIdeal.Gen Cert.ReferenceIdeal.ReadP Idealize.ShloMosaic Idealize.ShloMosaic.ValueIdx
open Cert.NormReal

/-- One edge's update, at column `o`: row `src e` of `x · (W1 + W2)` at `o`, times the edge's weight. -/
theorem update_entry (x0 : (⟨S100000x32, .f32⟩ : BufTy).Contents (Elt Ideal)) (x1 : (⟨S2x1600000, .i32⟩ : BufTy).Contents (Elt Ideal))
    (x2 x4 : (⟨S32x32, .f32⟩ : BufTy).Contents (Elt Ideal)) (e : Fin 1700000) (o : Fin 32) :
    val_main_v41 (F := Ideal) x0 x1 x2 x4 (ix2 e o)
      = (∑ k : Fin 32, x0 (ix2 (srcRow x1 e) k) * (x2 (ix2 k o) + x4 (ix2 k o))) * nrmE x1 e := by
  rw [val_main_v41_apply, Ideal.mulf_def]
  have g : val_main_v38 (F := Ideal) x0 x1 x2 x4 (ix2 e o) = val_main_v31 (F := Ideal) x0 x2 x4 (ix2 (srcRow x1 e) o) :=
    Cert.HostInt.gather_rows_apply (α := EReal) (B := 100000) (F := 32) (N := 1700000) (w := 32) (by omega)
      gather_S100000x32_S1700000x1_S1700000x32_1_0_n_n_0_1_132_wf (val_main_v31 (F := Ideal) x0 x2 x4) (val_main_v37 (F := Ideal) x1) e o
  have hn : val_main_v40 (F := Ideal) x1 (ix2 e o) = nrmE x1 e := by
    rw [val_main_v40_apply, val_main_v39_apply]
    exact congrArg (val_main_v29 (F := Ideal) x1) (funext fun a => Fin.ext (by match a with | ⟨0, _⟩ => rfl))
  rw [g, hn, val_main_v31_apply]
  refine congrArg (· * nrmE x1 e) (Finset.sum_congr rfl fun k _ => ?_)
  have e1 : lidx_main_v31 (ix2 (srcRow x1 e) o) k = ix2 (srcRow x1 e) k :=
    funext fun a => Fin.ext (by match a with | ⟨0, _⟩ => rfl | ⟨1, _⟩ => rfl)
  have e2 : ridx_main_v31 (ix2 (srcRow x1 e) o) k = ix2 k o :=
    funext fun a => Fin.ext (by match a with | ⟨0, _⟩ => rfl | ⟨1, _⟩ => rfl)
  rw [e1, e2, val_main_v30_apply, Ideal.addf_def]

/-- The aggregate at an entry: zero plus the updates of the edges that land on `n`. -/
theorem agg_entry (x0 : (⟨S100000x32, .f32⟩ : BufTy).Contents (Elt Ideal)) (x1 : (⟨S2x1600000, .i32⟩ : BufTy).Contents (Elt Ideal))
    (x2 x4 : (⟨S32x32, .f32⟩ : BufTy).Contents (Elt Ideal)) (n : Fin 100000) (o : Fin 32) :
    val_main_v44 (F := Ideal) x0 x1 x2 x4 (ix2 n o)
      = (0 : EReal) + ∑ e : Fin 1700000, if hitE x1 n e then
          (∑ k : Fin 32, x0 (ix2 (srcRow x1 e) k) * (x2 (ix2 k o) + x4 (ix2 k o))) * nrmE x1 e else 0 := by
  have s : val_main_v44 (F := Ideal) x0 x1 x2 x4 (ix2 n o)
      = val_main_v42 (F := Ideal) (ix2 n o) + ∑ e : Fin 1700000, if hitE x1 n e then val_main_v41 (F := Ideal) x0 x1 x2 x4 (ix2 e o) else 0 :=
    Cert.HostInt.scatterAdd_rows_apply (B := 100000) (F := 32) (N := 1700000) (w := 32) (φ := .f32)
      scatter_S100000x32_S1700000x1_S1700000x32_1_0_0_1_wf (val_main_v42 (F := Ideal)) (val_main_v43 (F := Ideal) x1)
      (val_main_v41 (F := Ideal) x0 x1 x2 x4) n o
  rw [s, val_main_v42_apply, val_main_cst_8_apply, Ideal.ofBits_def, Ideal.ofBits_zero_f32]
  refine congrArg ((0 : EReal) + ·) (Finset.sum_congr rfl fun e _ => ?_)
  rw [update_entry]

/-- THE REFERENCE AT AN ENTRY. -/
theorem ref_entry (x0 : (⟨S100000x32, .f32⟩ : BufTy).Contents (Elt Ideal)) (x1 : (⟨S2x1600000, .i32⟩ : BufTy).Contents (Elt Ideal))
    (x2 : (⟨S32x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (n : Fin 100000) (o : Fin 32) :
    val_main_v51 (F := Ideal) x0 x1 x2 x3 x4 x5 (ix2 n o)
      = max ((((0 : EReal) + ∑ e : Fin 1700000, if hitE x1 n e then
            (∑ k : Fin 32, x0 (ix2 (srcRow x1 e) k) * (x2 (ix2 k o) + x4 (ix2 k o))) * nrmE x1 e else 0)
          + x3 (ix1 o)) + x5 (ix1 o)) 0 := by
  rw [val_main_v51_apply, val_main_v50_apply, val_main_v47_apply, val_main_call1_v0_apply, val_main_call1_cst_apply,
    val_main_v49_apply, val_main_v48_apply, val_main_v46_apply, val_main_v45_apply, agg_entry,
    Ideal.maximumf_def, Ideal.addf_def, Ideal.addf_def, Ideal.ofBits_def, Ideal.ofBits_zero_f32]
  have b3 : idx_main_v45 (idx_main_v46 (ix2 n o)) = ix1 o := funext fun a => Fin.ext (by match a with | ⟨0, _⟩ => rfl)
  have b5 : idx_main_v48 (idx_main_v49 (ix2 n o)) = ix1 o := funext fun a => Fin.ext (by match a with | ⟨0, _⟩ => rfl)
  rw [b3, b5]

end Cert.RefEntry

end
-- ==== Proof.AggLaw.lean ====
/-
  The one law that joins the two programs.

  Both programs aggregate, for a fixed node, over the edges `e` that land on it (`hit e`), the row `s e` of a table
  scaled by the edge's weight `cv e`. The reference multiplies the table by the weight matrix first, so an edge
  contributes `(∑ k, X (s e) k * W k) * cv e`; the kernel aggregates the raw rows and multiplies afterwards, so column
  `k` of the aggregate is `∑ e, X (s e) k * cv e` and the result is its product with `W`, summed over `k`. The two
  agree by distributivity and an exchange of the two finite sums. On the extended reals distributivity fails at the
  infinities, so the law is stated for entries that are real numbers, and proved in ℝ.
-/
import Idealize.ShloMosaic.PureOps.Ideal

noncomputable section

open scoped BigOperators

namespace Cert.AggLaw

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same identity over the reals: aggregate-then-multiply is multiply-then-aggregate. -/
theorem agg_comm_real {M C : ℕ} {N : Type} (x : N → Fin C → ℝ) (w : Fin C → ℝ) (c : Fin M → ℝ) (s : Fin M → N)
    (hit : Fin M → Prop) [DecidablePred hit] :
    (∑ e : Fin M, if hit e then (∑ k : Fin C, x (s e) k * w k) * c e else 0)
      = ∑ k : Fin C, (∑ e : Fin M, if hit e then x (s e) k * c e else 0) * w k := by
  simp only [Finset.sum_mul]
  rw [Finset.sum_comm]
  refine Finset.sum_congr rfl fun e _ => ?_
  by_cases h : hit e
  · simp only [if_pos h]
    refine Finset.sum_congr rfl fun k _ => ?_
    ring
  · simp only [if_neg h, zero_mul, Finset.sum_const_zero]

/-- THE LAW on the extended reals, for real entries: the sum over the landing edges of the transformed, scaled rows is
    the transform of the sum over the landing edges of the scaled raw rows. Both sums start from zero, as a scatter-add
    into a zero array does. -/
theorem agg_comm {M C : ℕ} {N : Type} (X : N → Fin C → EReal) (W : Fin C → EReal) (cv : Fin M → EReal) (s : Fin M → N)
    (hit : Fin M → Prop) [DecidablePred hit]
    (hX : ∀ i k, ∃ r : ℝ, X i k = (r : EReal)) (hW : ∀ k, ∃ r : ℝ, W k = (r : EReal))
    (hc : ∀ e, ∃ r : ℝ, cv e = (r : EReal)) :
    (0 : EReal) + ∑ e : Fin M, (if hit e then (∑ k : Fin C, X (s e) k * W k) * cv e else 0)
      = ∑ k : Fin C, ((0 : EReal) + ∑ e : Fin M, (if hit e then X (s e) k * cv e else 0)) * W k := by
  choose xr hxr using hX
  choose wr hwr using hW
  choose cr hcr using hc
  have L : ∀ e, (if hit e then (∑ k : Fin C, X (s e) k * W k) * cv e else (0 : EReal))
      = (((if hit e then (∑ k : Fin C, xr (s e) k * wr k) * cr e else 0 : ℝ)) : EReal) := by
    intro e
    by_cases h : hit e
    · simp only [if_pos h, hxr, hwr, hcr, ← EReal.coe_mul, ← coe_sum]
    · simp only [if_neg h, EReal.coe_zero]
  have R : ∀ k e, (if hit e then X (s e) k * cv e else (0 : EReal))
      = (((if hit e then xr (s e) k * cr e else 0 : ℝ)) : EReal) := by
    intro k e
    by_cases h : hit e
    · simp only [if_pos h, hxr, hcr, ← EReal.coe_mul]
    · simp only [if_neg h, EReal.coe_zero]
  simp only [L, R]
  simp only [hwr, zero_add, ← coe_sum, ← EReal.coe_mul]
  exact congrArg _ (agg_comm_real xr wr cr s hit)

end Cert.AggLaw

end
-- ==== Proof.Bridge.lean ====
/-
  The kernel's output array is the reference's result, entry by entry.

  At entry `(n, o)` the kernel holds `max(∑ k, A(n, k) * W(k, o) + (b1 o + b2 o), 0)` with `A` the aggregate of the raw
  features and `W = W1 + W2`, and the reference `max((agg(n, o) + b1 o) + b2 o, 0)` with `agg` the aggregate of the
  transformed features. The aggregation law turns one into the other — it needs the features, the weights and the edge
  weights to be real numbers: the first two by the precondition, the last by computation —, and the biases join by
  associativity of the sum.
-/
import proofs.«166304_j89936615178296_2_alg».proof.Proof.KernelEntry
import proofs.«166304_j89936615178296_2_alg».proof.Proof.KernelDense
import proofs.«166304_j89936615178296_2_alg».proof.Proof.RefEntry
import proofs.«166304_j89936615178296_2_alg».proof.Proof.AggLaw

noncomputable section

namespace Cert.Bridge

open Cert.KernelIdeal Cert.KernelIdeal.Gen Idealize.ShloMosaic Idealize.ShloMosaic.TcCoe Idealize.SL.Sem
open Idealize.ShloMosaic.ValueIdx Cert.NormReal Cert.KernelEntry

variable (m : (ℓ : Loc nD τ sig) → Buf (Elt Ideal) ℓ) (c : Dev nD)

/-- The kernel's entry over the argument arrays: the aggregate of the raw rows times `W1 + W2`, plus the summed bias,
    clamped at zero. -/
theorem kernel_entry (n : Fin 100000) (o : Fin 32) :
    (dats (F := Ideal) m 0 c).arrAt 3 cfg0.N (ix2 n o)
      = max ((∑ k : Fin 32, ((0 : EReal) + ∑ e : Fin 1700000, if hitE (argE m c) n e then
              argX m c (ix2 (srcRow (argE m c) e) k) * nrmE (argE m c) e else 0)
            * (argW1 m c (ix2 k o) + argW2 m c (ix2 k o)))
          + (argB1 m c (ix1 o) + argB2 m c (ix1 o))) (0 : EReal) :=
  (Cert.KernelIdeal.Dense.final_apply m c n o).trans
    (congrArg (fun t : EReal => max t 0)
      (congrArg₂ (fun s b : EReal => s + b)
        (Finset.sum_congr rfl fun k _ => congrArg₂ (fun a w : EReal => a * w) (A_entry m c n k) (W_entry m c k o))
        (b_entry m c o)))

/-- The two programs' results agree at every entry, for real features and weights. -/
theorem entry_eq
    (h0 : ∀ i, ∃ r : ℝ, argX m c i = (r : EReal)) (h2 : ∀ i, ∃ r : ℝ, argW1 m c i = (r : EReal))
    (h4 : ∀ i, ∃ r : ℝ, argW2 m c i = (r : EReal)) (n : Fin 100000) (o : Fin 32) :
    (dats (F := Ideal) m 0 c).arrAt 3 cfg0.N (ix2 n o)
      = Cert.ReferenceIdeal.ReadP.val_main_v51 (F := Ideal) (argX m c) (argE m c) (argW1 m c) (argB1 m c) (argW2 m c) (argB2 m c)
          (ix2 n o) := by
  refine (kernel_entry m c n o).trans ?_
  have hW : ∀ k : Fin 32, ∃ r : ℝ, argW1 m c (ix2 k o) + argW2 m c (ix2 k o) = (r : EReal) := by
    intro k
    obtain ⟨a, ha⟩ := h2 (ix2 k o)
    obtain ⟨b, hb⟩ := h4 (ix2 k o)
    exact ⟨a + b, by rw [ha, hb, EReal.coe_add]⟩
  have L := Cert.AggLaw.agg_comm (M := 1700000) (C := 32) (N := Fin 100000)
    (fun i k => argX m c (ix2 i k)) (fun k => argW1 m c (ix2 k o) + argW2 m c (ix2 k o))
    (fun e => nrmE (argE m c) e) (srcRow (argE m c)) (hitE (argE m c) n)
    (fun i k => h0 (ix2 i k)) hW (fun e => nrm_real (argE m c) e)
  rw [Cert.RefEntry.ref_entry, ← L]
  exact congrArg (fun t : EReal => max t 0) (add_assoc _ _ _).symm

/-- The kernel's output array after its run is the reference's result array. -/
theorem array_eq
    (h0 : ∀ i, ∃ r : ℝ, argX m c i = (r : EReal)) (h2 : ∀ i, ∃ r : ℝ, argW1 m c i = (r : EReal))
    (h4 : ∀ i, ∃ r : ℝ, argW2 m c i = (r : EReal)) :
    (dats (F := Ideal) m 0 c).arrAt 3 cfg0.N
      = Cert.ReferenceIdeal.ReadP.val_main_v51 (F := Ideal) (argX m c) (argE m c) (argW1 m c) (argB1 m c) (argW2 m c) (argB2 m c) := by
  funext i
  obtain ⟨n, o, rfl⟩ : ∃ (n : Fin 100000) (o : Fin 32), i = ix2 n o := ⟨i 0, i 1, eq_ix2 i⟩
  exact entry_eq m c h0 h2 h4 n o

end Cert.Bridge

end
-- ==== Proof.lean ====
/-
  A graph convolution with two weight matrices, fused: the kernel against its reference, on the extended reals.

  Both programs add a self loop to every node, count each node's in-degree `deg`, set `dinv = where(deg > 0, rsqrt deg, 0)`
  and give edge `e` the weight `dinv (src e) * dinv (dst e)`. The reference transforms the features first,
  `h = x · (W1 + W2)`, sums over the edges landing on node `n` the rows `h (src e)` scaled by the edge weights, adds the
  two biases one after the other and clamps at zero. The kernel sums the RAW rows `x (src e)` scaled by the edge weights
  on the host, and its one launched body multiplies that aggregate, ten thousand rows at a time, by `W1 + W2`, adds the
  summed bias and clamps at zero.

  The two agree because aggregation is linear: `∑ e, (∑ k, x(src e, k) · W(k, o)) · c e = ∑ k, (∑ e, x(src e, k) · c e) · W(k, o)`,
  by distributivity and an exchange of two finite sums. On the extended reals distributivity needs finite terms: the
  features and the weights are finite by the precondition, and an edge weight is finite whatever the degree count is
  (`rsqrt` of a positive extended real is a real number, and `0` at `+∞`). The biases meet by associativity of the sum,
  which holds on all of the extended reals, so their finiteness is never used.

  The three frames are the generated frame proofs (the reference's is its run with the result dropped); the
  idealization rewrote nothing, so there is nothing to preserve; the modules under Proof/ carry the value argument:
  AggLaw (the law), NormReal (edge weights are real), RefEntry and KernelHost / KernelEntry / KernelDense (each program's
  result at an entry), FiniteInputs (the precondition read), Bridge (the two results are one array).
-/
import proofs.«166304_j89936615178296_2_alg».proof.Defs
import proofs.«166304_j89936615178296_2_alg».proof.Proof.Gen.Kernel
import proofs.«166304_j89936615178296_2_alg».proof.Proof.Gen.Kernel.Skeleton
import proofs.«166304_j89936615178296_2_alg».proof.Proof.Gen.Kernel.Launch
import proofs.«166304_j89936615178296_2_alg».proof.Proof.Gen.Kernel.Points
import proofs.«166304_j89936615178296_2_alg».proof.Proof.Gen.Kernel.Frame
import proofs.«166304_j89936615178296_2_alg».proof.Proof.Gen.KernelIdeal
import proofs.«166304_j89936615178296_2_alg».proof.Proof.Gen.KernelIdeal.Skeleton
import proofs.«166304_j89936615178296_2_alg».proof.Proof.Gen.KernelIdeal.Launch
import proofs.«166304_j89936615178296_2_alg».proof.Proof.Gen.KernelIdeal.Points
import proofs.«166304_j89936615178296_2_alg».proof.Proof.Gen.KernelIdeal.Frame
import proofs.«166304_j89936615178296_2_alg».proof.Proof.Gen.ReferenceIdeal
import proofs.«166304_j89936615178296_2_alg».proof.Proof.Gen.Pre_finite_inputs
import proofs.«166304_j89936615178296_2_alg».proof.Proof.Gen.KernelIdeal.Value
import proofs.«166304_j89936615178296_2_alg».proof.Proof.ReadP
import proofs.«166304_j89936615178296_2_alg».proof.Proof.FiniteInputs
import proofs.«166304_j89936615178296_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result array: the kernel's output
    array after its run, which is the reference's result entry by entry. -/
theorem algebraic : Cert.algebraic_KernelIdeal_ReferenceIdeal := by
  intro m ρ m' ρ' hpre hagree
  refine ⟨fun c => (Cert.KernelIdeal.Gen.dats (F := Ideal) m 0 c).arrAt 3 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h4⟩ := Cert.FiniteInputs.real_of_pre _ _ _ _ _ _ (hpre c)
  rw [Cert.ReferenceIdeal.ReadP.val_main_v51_eq, (hagree c).1, (hagree c).2.1, (hagree c).2.2.1, (hagree c).2.2.2.1,
    (hagree c).2.2.2.2.1, (hagree c).2.2.2.2.2]
  exact (Cert.Bridge.array_eq m c h0 h2 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
